-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x1024 : Shape := ⟨3, ![2, 4096, 1024]⟩
abbrev S4096x1024 : Shape := ⟨2, ![4096, 1024]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S2x4096x1024 .f32) (main_arg1 : FVec F S4096x1024 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S2x4096x1024 : Shape := ⟨3, ![2, 4096, 1024]⟩
abbrev S4096x1024 : Shape := ⟨2, ![4096, 1024]⟩
abbrev S1024x4096 : Shape := ⟨2, ![1024, 4096]⟩
abbrev S1x1024x1024 : Shape := ⟨3, ![1, 1024, 1024]⟩
abbrev S1x16x1024 : Shape := ⟨3, ![1, 16, 1024]⟩
abbrev S16x1024 : Shape := ⟨2, ![16, 1024]⟩
abbrev S1024x1024 : Shape := ⟨2, ![1024, 1024]⟩
abbrev S1040x1024 : Shape := ⟨2, ![1040, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2x4096x1024, .f32⟩
  | .hbm, ⟨1, _⟩ => ⟨S4096x1024, .f32⟩
  | .hbm, ⟨2, _⟩ => ⟨S1024x4096, .f32⟩
  | .hbm, ⟨3, _⟩ => ⟨S1024x4096, .bf16⟩
  | .hbm, ⟨4, _⟩ => ⟨S2x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x16x1024, .f32⟩
  | .local _ .vmem, ⟨3, _⟩ => ⟨S1x16x1024, .f32⟩
  | .local _ .vmem, ⟨4, _⟩ => ⟨S1024x4096, .bf16⟩
  | .local _ .vmem, ⟨5, _⟩ => ⟨S1x1024x1024, .f32⟩
  | .local _ .vmem, ⟨6, _⟩ => ⟨S1x1024x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S4096x1024_S1024x4096_1_0 : S4096x1024.Transposes [1, 0] S1024x4096
  bitsLt_bf16_f32 : FTy.bits .bf16 < FTy.bits .f32
  inb_S1x16x1024_S1x16x1024_0_0_0 : ∀ a, (![0, 0, 0] : Fin 3 → Nat) a + S1x16x1024.size a ≤ S1x16x1024.size a
  h_S1x16x1024 : 0 < S1x16x1024.numel
  shapeCasts_S1x16x1024_S16x1024 : S1x16x1024.ShapeCasts S16x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  concatenates_S16x1024_S1024x1024_S1040x1024_d0 : Shape.Concatenates [S16x1024, S1024x1024] S1040x1024 0
  rotates_S1040x1024_d0 : S1040x1024.Rotates 0 none
  slices_S1040x1024_o16_0_S1024x1024 : S1040x1024.Slices ![16, 0] S1024x1024
  inb_S1024x4096_S1024x1024_0_0 : ∀ a, (![0, 0] : Fin 2 → Nat) a + S1024x1024.size a ≤ S1024x4096.size a
  h_S1024x1024 : 0 < S1024x1024.numel
  shapeCasts_S1024x1024_S1024x1024 : S1024x1024.ShapeCasts S1024x1024
  inb_S1024x4096_S1024x1024_0_1024 : ∀ a, (![0, 1024] : Fin 2 → Nat) a + S1024x1024.size a ≤ S1024x4096.size a
  inb_S1024x4096_S1024x1024_0_2048 : ∀ a, (![0, 2048] : Fin 2 → Nat) a + S1024x1024.size a ≤ S1024x4096.size a
  inb_S1024x4096_S1024x1024_0_3072 : ∀ a, (![0, 3072] : Fin 2 → Nat) a + S1024x1024.size a ≤ S1024x4096.size a
  shapeCasts_S1024x1024_S1x1024x1024 : S1024x1024.ShapeCasts S1x1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S2x4096x1024.size a
  hwx0_0 : ∀ i : grid0.Coords, EltTy.bits .f32 = 32 ∨ (Rect.block (s := S2x4096x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x1024.size a ≤ S2x4096x1024.size a
  hwx0_1 : ∀ i : grid0.Coords, EltTy.bits .f32 = 32 ∨ (Rect.block (s := S2x4096x1024) S1x16x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S1024x4096.size a
  hwx0_2 : ∀ i : grid0.Coords, EltTy.bits .bf16 = 32 ∨ (Rect.block (s := S1024x4096) S1024x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S2x4096x1024.size a
  hwx0_3 : ∀ i : grid0.Coords, EltTy.bits .f32 = 32 ∨ (Rect.block (s := S2x4096x1024) S1x1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x16x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x4096x1024 : Shape := ⟨3, ![2, 4096, 1024]⟩
abbrev S4096x1024 : Shape := ⟨2, ![4096, 1024]⟩
abbrev S2x4096x4096 : Shape := ⟨3, ![2, 4096, 4096]⟩
abbrev S2x4096x4x1024 : Shape := ⟨4, ![2, 4096, 4, 1024]⟩
abbrev S2x4096x1x1024 : Shape := ⟨4, ![2, 4096, 1, 1024]⟩
abbrev S2x4095x1x1024 : Shape := ⟨4, ![2, 4095, 1, 1024]⟩
abbrev S2x4095x1024 : Shape := ⟨3, ![2, 4095, 1024]⟩
abbrev S_ : Shape := ⟨0, ![]⟩
abbrev S2x4094x1x1024 : Shape := ⟨4, ![2, 4094, 1, 1024]⟩
abbrev S2x4094x1024 : Shape := ⟨3, ![2, 4094, 1024]⟩
abbrev S2x4093x1x1024 : Shape := ⟨4, ![2, 4093, 1, 1024]⟩
abbrev S2x4093x1024 : Shape := ⟨3, ![2, 4093, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S4096x1024, .f32⟩
  | .hbm, ⟨2, _⟩ => ⟨S2x4096x4096, .f32⟩
  | .hbm, ⟨3, _⟩ => ⟨S2x4096x4x1024, .f32⟩
  | .hbm, ⟨4, _⟩ => ⟨S2x4096x1x1024, .f32⟩
  | .hbm, ⟨5, _⟩ => ⟨S2x4096x1024, .f32⟩
  | .hbm, ⟨6, _⟩ => ⟨S2x4095x1x1024, .f32⟩
  | .hbm, ⟨7, _⟩ => ⟨S2x4095x1024, .f32⟩
  | .hbm, ⟨8, _⟩ => ⟨S_, .i32⟩
  | .hbm, ⟨9, _⟩ => ⟨S_, .f32⟩
  | .hbm, ⟨10, _⟩ => ⟨S2x4096x1024, .f32⟩
  | .hbm, ⟨11, _⟩ => ⟨S2x4096x1024, .f32⟩
  | .hbm, ⟨12, _⟩ => ⟨S2x4094x1x1024, .f32⟩
  | .hbm, ⟨13, _⟩ => ⟨S2x4094x1024, .f32⟩
  | .hbm, ⟨14, _⟩ => ⟨S_, .i32⟩
  | .hbm, ⟨15, _⟩ => ⟨S_, .f32⟩
  | .hbm, ⟨16, _⟩ => ⟨S2x4096x1024, .f32⟩
  | .hbm, ⟨17, _⟩ => ⟨S2x4096x1024, .f32⟩
  | .hbm, ⟨18, _⟩ => ⟨S2x4093x1x1024, .f32⟩
  | .hbm, ⟨19, _⟩ => ⟨S2x4093x1024, .f32⟩
  | .hbm, ⟨20, _⟩ => ⟨S_, .i32⟩
  | .hbm, ⟨21, _⟩ => ⟨S_, .f32⟩
  | .hbm, ⟨22, _⟩ => ⟨S2x4096x1024, .f32⟩
  | .hbm, ⟨23, _⟩ => ⟨S2x4096x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_call1_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_call2_v0 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  shapeCasts_S2x4096x4096_S2x4096x4x1024 : S2x4096x4096.ShapeCasts S2x4096x4x1024
  slices_S2x4096x4x1024_S2x4096x1x1024_0_0_0_0 : S2x4096x4x1024.Slices ![0, 0, 0, 0] S2x4096x1x1024
  shapeCasts_S2x4096x1x1024_S2x4096x1024 : S2x4096x1x1024.ShapeCasts S2x4096x1024
  slices_S2x4096x4x1024_S2x4095x1x1024_0_0_1_0 : S2x4096x4x1024.Slices ![0, 0, 1, 0] S2x4095x1x1024
  shapeCasts_S2x4095x1x1024_S2x4095x1024 : S2x4095x1x1024.ShapeCasts S2x4095x1024
  pads_S2x4095x1024_S2x4096x1024_000_100_000 : S2x4095x1024.Pads (![0, 1, 0] : Fin 3 → Nat) ![0, 0, 0] ![0, 0, 0] S2x4096x1024
  h_S_ : 0 < S_.numel
  slices_S2x4096x4x1024_S2x4094x1x1024_0_0_2_0 : S2x4096x4x1024.Slices ![0, 0, 2, 0] S2x4094x1x1024
  shapeCasts_S2x4094x1x1024_S2x4094x1024 : S2x4094x1x1024.ShapeCasts S2x4094x1024
  pads_S2x4094x1024_S2x4096x1024_000_200_000 : S2x4094x1024.Pads (![0, 2, 0] : Fin 3 → Nat) ![0, 0, 0] ![0, 0, 0] S2x4096x1024
  slices_S2x4096x4x1024_S2x4093x1x1024_0_0_3_0 : S2x4096x4x1024.Slices ![0, 0, 3, 0] S2x4093x1x1024
  shapeCasts_S2x4093x1x1024_S2x4093x1024 : S2x4093x1x1024.ShapeCasts S2x4093x1024
  pads_S2x4093x1024_S2x4096x1024_000_300_000 : S2x4093x1024.Pads (![0, 3, 0] : Fin 3 → Nat) ![0, 0, 0] ![0, 0, 0] S2x4096x1024
  dot_S2x4096x1024_S4096x1024_S2x4096x4096_2_1_01_0_n_n_wf : DotDims.WF S2x4096x1024 S4096x1024 S2x4096x4096 [2] [1] [0, 1] [0] [] []

variable [Facts₀]

def dot_S2x4096x1024_S4096x1024_S2x4096x4096_2_1_01_0_n_n : DotDims S2x4096x1024 S4096x1024 S2x4096x4096 where
  lhsContracting := [2]
  rhsContracting := [1]
  lhsNonContracting := [0, 1]
  rhsNonContracting := [0]
  lhsBatch := []
  rhsBatch := []
  wf := dot_S2x4096x1024_S4096x1024_S2x4096x4096_2_1_01_0_n_n_wf

class Facts : Prop extends Facts₀ where

variable [Facts]
-- ==== Proof.FrameK.lean ====
/-
  The run of `Kernel`'s one pallas_call, at any float instance.

  The call hands ONE array, the sequence `X`, to the kernel through TWO input windows: the current tile of
  1024 rows, and the 16 rows just before it (the halo; for the first tile of a sequence the index map clamps the
  halo's block to block 0 and the body masks it to zero). The library's launch for windows that share an array
  deals the array's full share between the two windows, half each. The body loads the two `X` blocks and four
  column panels of the transposed, narrowed weight, and stores one whole block of the result; what it leaves in
  the result's staging buffer is therefore one pure function of the three input blocks (`outBlk`).

  Proved here: the body's triple, the proof data of the pipeline, the body obligation at every grid point, and
  the run itself (`run_main`): every weakly fair execution terminates, nothing faults, the result array ends as
  the library's fold of the per-point write-backs (`Dat.arrAt`), and every other array as the region found it.
-/
import proofs.«109287_j13357348290662_2_alg».proof.Proof.Gen.Kernel.Launch
import proofs.«109287_j13357348290662_2_alg».proof.Proof.Gen.Kernel.Skeleton
import proofs.«109287_j13357348290662_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the two host operations (the weight transposed, then
    narrowed). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the two host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither host operation writes `X`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
/-- Neither host operation writes `W`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before_tile_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_halo_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_weight_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole halo block, the whole tile, and the four column panels of the weight. -/
abbrev rHalo : Rect S1x16x1024 := Rect.unit (s := S1x16x1024) ![0, 0, 0] S1x16x1024.size inb_S1x16x1024_S1x16x1024_0_0_0
abbrev rTile : Rect S1x1024x1024 := Rect.unit (s := S1x1024x1024) ![0, 0, 0] S1x1024x1024.size inb_S1x1024x1024_S1x1024x1024_0_0_0
abbrev rW0 : Rect S1024x4096 := Rect.unit (s := S1024x4096) ![0, 0] S1024x1024.size inb_S1024x4096_S1024x1024_0_0
abbrev rW1 : Rect S1024x4096 := Rect.unit (s := S1024x4096) ![0, 1024] S1024x1024.size inb_S1024x4096_S1024x1024_0_1024
abbrev rW2 : Rect S1024x4096 := Rect.unit (s := S1024x4096) ![0, 2048] S1024x1024.size inb_S1024x4096_S1024x1024_0_2048
abbrev rW3 : Rect S1024x4096 := Rect.unit (s := S1024x4096) ![0, 3072] S1024x1024.size inb_S1024x4096_S1024x1024_0_3072

/-! ## What the body leaves in the result's buffer -/

/-- The result window's staging buffer after the body at grid coordinates `i`, from the tile `x0`, the halo `x1`
    and the weight `x2`: its one store, of the four taps' products summed. -/
def outBlk (i : grid0.Coords) (x0 : Vec F S1x1024x1024 .f32) (x1 : Vec F S1x16x1024 .f32) (x2 : Vec F S1024x4096 .bf16) : Vec F S1x1024x1024 .f32 :=
  View.canon [⟨rTile, k0_pay1 (k0_pay3 i (View.ld x1 rHalo) (View.ld x0 rTile) (View.ld x2 rW0) (View.ld x2 rW1) (View.ld x2 rW2))
    (k0_pay4 i (View.ld x1 rHalo) (View.ld x0 rTile) (View.ld x2 rW3))⟩]

/-- The one store covers the buffer. -/
theorem cover_out (p0 : Vec F S1x1024x1024 .f32) (y : S1x1024x1024.Idx) :
    ∃ pc ∈ ([⟨rTile, p0⟩] : List (View.Piece (Elt F) S1x1024x1024 .f32)), y ∈ pc.1.set :=
  View.cover_of_tiled [⟨rTile, p0⟩] S1x1024x1024.size (by rfl) y

/-! ## The body's triple -/

set_option maxHeartbeats 1000000 in
/-- The body on whole staging memrefs, the inputs' at read contents and the result's at anything, runs to the
    continuation holding the inputs' as they were and the result's at `outBlk` of them. -/
theorem sound_kernel (c : Dev nD) (E : Set ℕ) (i : grid0.Coords)
    (arg2 : Memref sig .tc .vmem S1x1024x1024 .f32) (harg2 : arg2.IsWhole) (arg3 : Memref sig .tc .vmem S1x16x1024 .f32) (harg3 : arg3.IsWhole)
    (arg4 : Memref sig .tc .vmem S1024x4096 .bf16) (harg4 : arg4.IsWhole) (arg5 : Memref sig .tc .vmem S1x1024x1024 .f32) (harg5 : arg5.IsWhole)
    (x0 : Vec F S1x1024x1024 .f32) (x1 : Vec F S1x16x1024 .f32) (x2 : Vec F S1024x4096 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlk i x0 x1 x2)) -∗ K ⟨⟩))
      ⊢ wp frame (wpE (defs₀ (F := F)) Variants.none c none) E (cc0__causal_conv_kernel i arg2 harg2 arg3 harg3 arg4 harg4 arg5 harg5) K := by
  simp only [cc0__causal_conv_kernel_eq_skeleton]; unfold cc0__causal_conv_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover_out _)

/-! ## The pipeline's proof data -/

/-- The proof data on core `c`: the arrays as the region finds them; after the body at point `t` each input's buffer
    at its block and the result's at `outBlk` of the input blocks; the invariant the core's scoped buffers that are
    no staging buffer; nothing owed. The two windows on `X` hold it at half the full share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (grid0.coords t) (iblk m c 0 t) (iblk m c 1 t) (iblk m c 2 t)
  Φ _ := Pipeline.scopedRest spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after_tile (c : Dev nD) (t : Fin cfg0.N) : (dats m 0 c).after 0 t = iblk m c 0 t := by dsimp only [dats]
theorem after_halo (c : Dev nD) (t : Fin cfg0.N) : (dats m 0 c).after 1 t = iblk m c 1 t := by dsimp only [dats]
theorem after_weight (c : Dev nD) (t : Fin cfg0.N) : (dats m 0 c).after 2 t = iblk m c 2 t := by dsimp only [dats]
theorem after_out (c : Dev nD) (t : Fin cfg0.N) :
    (dats m 0 c).after 3 t = outBlk (grid0.coords t) (iblk m c 0 t) (iblk m c 1 t) (iblk m c 2 t) := by dsimp only [dats]

theorem before_tile (c : Dev nD) (t : Fin cfg0.N) (d) : (dats m 0 c).before 0 t d = iblk m c 0 t :=
  before_tile_of m (dats m 0 c) (A_eq m c 0) (after_tile m c) t d
theorem before_halo (c : Dev nD) (t : Fin cfg0.N) (d) : (dats m 0 c).before 1 t d = iblk m c 1 t :=
  before_halo_of m (dats m 0 c) (A_eq m c 1) (after_halo m c) t d
theorem before_weight (c : Dev nD) (t : Fin cfg0.N) (d) : (dats m 0 c).before 2 t d = iblk m c 2 t :=
  before_weight_of m (dats m 0 c) (A_eq m c 2) (after_weight m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_tile, before_halo, before_weight]
  rw [show (dats m 0 c).Φ t.succ = (dats m 0 c).Φ t.castSucc from rfl,
    show (dats m 0 c).owesAt () t.succ = (dats m 0 c).owesAt () t.castSucc from rfl,
    after_tile, after_halo, after_weight, after_out]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

end Cert.Kernel.Conv

end
-- ==== Proof.LaunchK.lean ====
/-
  The launch of `Kernel`'s pallas_call and the frame of the program, at any float instance.

  The sequence `X` is behind two input windows. At the region's entry the core holds `X` whole at the full share;
  the pipeline's two windows on it take the left and the right half of that share, the weight's window and the
  result's window their arrays whole. With that split the library's launch for windows sharing an array applies:
  the run terminates, nothing faults, every array of the pipeline ends at the library's fold of the write-backs and
  every other unscoped buffer as the region found it.
-/
import proofs.«109287_j13357348290662_2_alg».proof.Proof.FrameK

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's arrays, window by window: `X` at the left half share for the tile's window and at the right half
    for the halo's, the narrowed weight and the result whole. -/
theorem arrays_chain (c : Dev nD) (Fw : (w : Fin cfg0.W) → Buf (Elt F) ((cfg0.win w).arr.view.loc (c.tc : Thread nD τ))) :
    ((dats m 0 c).arrays Fw : sProp 𝕄)
      = iprop((((c : Thread nD τ).loc main_arg0) ↦{fullShare.left} Fw 0) ∗ (((c : Thread nD τ).loc main_arg0) ↦{fullShare.right} Fw 1)
          ∗ (((c : Thread nD τ).loc main_v1) ↦{fullShare} Fw 2) ∗ (((c : Thread nD τ).loc main_v2) ↦{fullShare} Fw 3)) := by
  unfold Dat.arrays
  rw [bigSep_W0, (arr_whole0 0).set_eq_univ, (arr_whole0 2).set_eq_univ, (arr_whole0 3).set_eq_univ]
  rfl

/-- The distinct buffers behind the windows' arrays. -/
theorem arrBufs_chain (c : Dev nD) (W : (b : Ref sig .tc) → Buf (Elt F) ((c.tc : Thread nD τ).loc b)) :
    (Pipeline.arrBufs spec0 c W : sProp 𝕄)
      = iprop((((c : Thread nD τ).loc main_arg0) ↦{fullShare} W main_arg0) ∗ (((c : Thread nD τ).loc main_v1) ↦{fullShare} W main_v1)
          ∗ (((c : Thread nD τ).loc main_v2) ↦{fullShare} W main_v2)) := by
  unfold Pipeline.arrBufs
  rw [bigSep_eq_bigSepL_of_eq [main_arg0, main_v1, main_v2] (by decide) (by decide)]
  rfl

/-- At the region's entry the full share of `X` is dealt to its two windows. -/
theorem hsplit (c : Dev nD) : (Pipeline.arrBufs spec0 c (V m c) : sProp 𝕄) ⊢ (dats m 0 c).arrays ((dats m 0 c).arrAt · 0) := by
  rw [arrBufs_chain, arrays_chain]
  iintro ⟨HX, HW, HO⟩
  ihave HX := (pointsTo_share (PosShare.mem_left_op_right fullShare)).1 $$ HX
  icases HX with ⟨HX₁, HX₂⟩
  isplitl [HX₁]; · iexact HX₁
  isplitl [HX₂]; · iexact HX₂
  isplitl [HW]; · iexact HW
  iexact HO

/-- The invariant is the same at every point. -/
theorem Φ_eq (c : Dev nD) (t : Fin (cfg0.N + 1)) : (dats m 0 c).Φ t = Pipeline.scopedRest spec0 c := by dsimp only [dats]

/-! ## The run -/

-- the launch theorem's implicit arguments are found by unifying its conclusion with this one, which takes unfolding
-- plain definitions in a metavariable's type
set_option backward.isDefEq.respectTransparency.types false in
/-- For any values, from any memory with zero counters: every weakly fair execution of @main terminates, nothing
    faults, and in the final state every array of the pipeline holds the library's fold of the write-backs over
    the proof data and every other unscoped buffer what the region found there. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by rw [Φ_eq]; iintro ⟨-, H⟩; iexact H)
    (hout := fun c => by rw [Φ_eq]; iintro H; isplitr; · iempintro
                         iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨fun w => (h c).1 w, (h c).2⟩)

/-- The frame: `X` is an input of both its windows, so it ends at its entry contents, which no host operation wrote;
    `W` is no window's array, so it ends as the region found it, unwritten too. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩) (run_main m ρ)

end Cert.Kernel.Conv

end
-- ==== Proof.FrameKI.lean ====
/-
  The run of `KernelIdeal`'s one pallas_call, at any float instance.

  The call hands ONE array, the sequence `X`, to the kernel through TWO input windows: the current tile of
  1024 rows, and the 16 rows just before it (the halo; for the first tile of a sequence the index map clamps the
  halo's block to block 0 and the body masks it to zero). The library's launch for windows that share an array
  deals the array's full share between the two windows, half each. The body loads the two `X` blocks and four
  column panels of the transposed, narrowed weight, and stores one whole block of the result; what it leaves in
  the result's staging buffer is therefore one pure function of the three input blocks (`outBlk`).

  Proved here: the body's triple, the proof data of the pipeline, the body obligation at every grid point, and
  the run itself (`run_main`): every weakly fair execution terminates, nothing faults, the result array ends as
  the library's fold of the per-point write-backs (`Dat.arrAt`), and every other array as the region found it.
-/
import proofs.«109287_j13357348290662_2_alg».proof.Proof.Gen.KernelIdeal.Launch
import proofs.«109287_j13357348290662_2_alg».proof.Proof.Gen.KernelIdeal.Skeleton
import proofs.«109287_j13357348290662_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the two host operations (the weight transposed, then
    narrowed). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the two host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither host operation writes `X`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
/-- Neither host operation writes `W`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before_tile_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_halo_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_weight_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole halo block, the whole tile, and the four column panels of the weight. -/
abbrev rHalo : Rect S1x16x1024 := Rect.unit (s := S1x16x1024) ![0, 0, 0] S1x16x1024.size inb_S1x16x1024_S1x16x1024_0_0_0
abbrev rTile : Rect S1x1024x1024 := Rect.unit (s := S1x1024x1024) ![0, 0, 0] S1x1024x1024.size inb_S1x1024x1024_S1x1024x1024_0_0_0
abbrev rW0 : Rect S1024x4096 := Rect.unit (s := S1024x4096) ![0, 0] S1024x1024.size inb_S1024x4096_S1024x1024_0_0
abbrev rW1 : Rect S1024x4096 := Rect.unit (s := S1024x4096) ![0, 1024] S1024x1024.size inb_S1024x4096_S1024x1024_0_1024
abbrev rW2 : Rect S1024x4096 := Rect.unit (s := S1024x4096) ![0, 2048] S1024x1024.size inb_S1024x4096_S1024x1024_0_2048
abbrev rW3 : Rect S1024x4096 := Rect.unit (s := S1024x4096) ![0, 3072] S1024x1024.size inb_S1024x4096_S1024x1024_0_3072

/-! ## What the body leaves in the result's buffer -/

/-- The result window's staging buffer after the body at grid coordinates `i`, from the tile `x0`, the halo `x1`
    and the weight `x2`: its one store, of the four taps' products summed. -/
def outBlk (i : grid0.Coords) (x0 : Vec F S1x1024x1024 .f32) (x1 : Vec F S1x16x1024 .f32) (x2 : Vec F S1024x4096 .bf16) : Vec F S1x1024x1024 .f32 :=
  View.canon [⟨rTile, k0_pay1 (k0_pay3 i (View.ld x1 rHalo) (View.ld x0 rTile) (View.ld x2 rW0) (View.ld x2 rW1) (View.ld x2 rW2))
    (k0_pay4 i (View.ld x1 rHalo) (View.ld x0 rTile) (View.ld x2 rW3))⟩]

/-- The one store covers the buffer. -/
theorem cover_out (p0 : Vec F S1x1024x1024 .f32) (y : S1x1024x1024.Idx) :
    ∃ pc ∈ ([⟨rTile, p0⟩] : List (View.Piece (Elt F) S1x1024x1024 .f32)), y ∈ pc.1.set :=
  View.cover_of_tiled [⟨rTile, p0⟩] S1x1024x1024.size (by rfl) y

/-! ## The body's triple -/

set_option maxHeartbeats 1000000 in
/-- The body on whole staging memrefs, the inputs' at read contents and the result's at anything, runs to the
    continuation holding the inputs' as they were and the result's at `outBlk` of them. -/
theorem sound_kernel (c : Dev nD) (E : Set ℕ) (i : grid0.Coords)
    (arg2 : Memref sig .tc .vmem S1x1024x1024 .f32) (harg2 : arg2.IsWhole) (arg3 : Memref sig .tc .vmem S1x16x1024 .f32) (harg3 : arg3.IsWhole)
    (arg4 : Memref sig .tc .vmem S1024x4096 .bf16) (harg4 : arg4.IsWhole) (arg5 : Memref sig .tc .vmem S1x1024x1024 .f32) (harg5 : arg5.IsWhole)
    (x0 : Vec F S1x1024x1024 .f32) (x1 : Vec F S1x16x1024 .f32) (x2 : Vec F S1024x4096 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlk i x0 x1 x2)) -∗ K ⟨⟩))
      ⊢ wp frame (wpE (defs₀ (F := F)) Variants.none c none) E (cc0__causal_conv_kernel i arg2 harg2 arg3 harg3 arg4 harg4 arg5 harg5) K := by
  simp only [cc0__causal_conv_kernel_eq_skeleton]; unfold cc0__causal_conv_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover_out _)

/-! ## The pipeline's proof data -/

/-- The proof data on core `c`: the arrays as the region finds them; after the body at point `t` each input's buffer
    at its block and the result's at `outBlk` of the input blocks; the invariant the core's scoped buffers that are
    no staging buffer; nothing owed. The two windows on `X` hold it at half the full share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (grid0.coords t) (iblk m c 0 t) (iblk m c 1 t) (iblk m c 2 t)
  Φ _ := Pipeline.scopedRest spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after_tile (c : Dev nD) (t : Fin cfg0.N) : (dats m 0 c).after 0 t = iblk m c 0 t := by dsimp only [dats]
theorem after_halo (c : Dev nD) (t : Fin cfg0.N) : (dats m 0 c).after 1 t = iblk m c 1 t := by dsimp only [dats]
theorem after_weight (c : Dev nD) (t : Fin cfg0.N) : (dats m 0 c).after 2 t = iblk m c 2 t := by dsimp only [dats]
theorem after_out (c : Dev nD) (t : Fin cfg0.N) :
    (dats m 0 c).after 3 t = outBlk (grid0.coords t) (iblk m c 0 t) (iblk m c 1 t) (iblk m c 2 t) := by dsimp only [dats]

theorem before_tile (c : Dev nD) (t : Fin cfg0.N) (d) : (dats m 0 c).before 0 t d = iblk m c 0 t :=
  before_tile_of m (dats m 0 c) (A_eq m c 0) (after_tile m c) t d
theorem before_halo (c : Dev nD) (t : Fin cfg0.N) (d) : (dats m 0 c).before 1 t d = iblk m c 1 t :=
  before_halo_of m (dats m 0 c) (A_eq m c 1) (after_halo m c) t d
theorem before_weight (c : Dev nD) (t : Fin cfg0.N) (d) : (dats m 0 c).before 2 t d = iblk m c 2 t :=
  before_weight_of m (dats m 0 c) (A_eq m c 2) (after_weight m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_tile, before_halo, before_weight]
  rw [show (dats m 0 c).Φ t.succ = (dats m 0 c).Φ t.castSucc from rfl,
    show (dats m 0 c).owesAt () t.succ = (dats m 0 c).owesAt () t.castSucc from rfl,
    after_tile, after_halo, after_weight, after_out]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

end Cert.KernelIdeal.Conv

end
-- ==== Proof.LaunchKI.lean ====
/-
  The launch of `KernelIdeal`'s pallas_call and the frame of the program, at any float instance.

  The sequence `X` is behind two input windows. At the region's entry the core holds `X` whole at the full share;
  the pipeline's two windows on it take the left and the right half of that share, the weight's window and the
  result's window their arrays whole. With that split the library's launch for windows sharing an array applies:
  the run terminates, nothing faults, every array of the pipeline ends at the library's fold of the write-backs and
  every other unscoped buffer as the region found it.
-/
import proofs.«109287_j13357348290662_2_alg».proof.Proof.FrameKI

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's arrays, window by window: `X` at the left half share for the tile's window and at the right half
    for the halo's, the narrowed weight and the result whole. -/
theorem arrays_chain (c : Dev nD) (Fw : (w : Fin cfg0.W) → Buf (Elt F) ((cfg0.win w).arr.view.loc (c.tc : Thread nD τ))) :
    ((dats m 0 c).arrays Fw : sProp 𝕄)
      = iprop((((c : Thread nD τ).loc main_arg0) ↦{fullShare.left} Fw 0) ∗ (((c : Thread nD τ).loc main_arg0) ↦{fullShare.right} Fw 1)
          ∗ (((c : Thread nD τ).loc main_v1) ↦{fullShare} Fw 2) ∗ (((c : Thread nD τ).loc main_v2) ↦{fullShare} Fw 3)) := by
  unfold Dat.arrays
  rw [bigSep_W0, (arr_whole0 0).set_eq_univ, (arr_whole0 2).set_eq_univ, (arr_whole0 3).set_eq_univ]
  rfl

/-- The distinct buffers behind the windows' arrays. -/
theorem arrBufs_chain (c : Dev nD) (W : (b : Ref sig .tc) → Buf (Elt F) ((c.tc : Thread nD τ).loc b)) :
    (Pipeline.arrBufs spec0 c W : sProp 𝕄)
      = iprop((((c : Thread nD τ).loc main_arg0) ↦{fullShare} W main_arg0) ∗ (((c : Thread nD τ).loc main_v1) ↦{fullShare} W main_v1)
          ∗ (((c : Thread nD τ).loc main_v2) ↦{fullShare} W main_v2)) := by
  unfold Pipeline.arrBufs
  rw [bigSep_eq_bigSepL_of_eq [main_arg0, main_v1, main_v2] (by decide) (by decide)]
  rfl

/-- At the region's entry the full share of `X` is dealt to its two windows. -/
theorem hsplit (c : Dev nD) : (Pipeline.arrBufs spec0 c (V m c) : sProp 𝕄) ⊢ (dats m 0 c).arrays ((dats m 0 c).arrAt · 0) := by
  rw [arrBufs_chain, arrays_chain]
  iintro ⟨HX, HW, HO⟩
  ihave HX := (pointsTo_share (PosShare.mem_left_op_right fullShare)).1 $$ HX
  icases HX with ⟨HX₁, HX₂⟩
  isplitl [HX₁]; · iexact HX₁
  isplitl [HX₂]; · iexact HX₂
  isplitl [HW]; · iexact HW
  iexact HO

/-- The invariant is the same at every point. -/
theorem Φ_eq (c : Dev nD) (t : Fin (cfg0.N + 1)) : (dats m 0 c).Φ t = Pipeline.scopedRest spec0 c := by dsimp only [dats]

/-! ## The run -/

-- the launch theorem's implicit arguments are found by unifying its conclusion with this one, which takes unfolding
-- plain definitions in a metavariable's type
set_option backward.isDefEq.respectTransparency.types false in
/-- For any values, from any memory with zero counters: every weakly fair execution of @main terminates, nothing
    faults, and in the final state every array of the pipeline holds the library's fold of the write-backs over
    the proof data and every other unscoped buffer what the region found there. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by rw [Φ_eq]; iintro ⟨-, H⟩; iexact H)
    (hout := fun c => by rw [Φ_eq]; iintro H; isplitr; · iempintro
                         iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨fun w => (h c).1 w, (h c).2⟩)

/-- The frame: `X` is an input of both its windows, so it ends at its entry contents, which no host operation wrote;
    `W` is no window's array, so it ends as the region found it, unwritten too. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩) (run_main m ρ)

end Cert.KernelIdeal.Conv

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.KernelPayload.lean ====
/-
  The body's arithmetic, read at one entry of the result block, at the ideal instance.

  The body stacks the 16 halo rows (zeroed at the first tile of a sequence) on the 1024 rows of the tile; tap `j` rolls
  the stack down by `j` rows and keeps rows 16 to 1039, so row `r` of what it keeps is row `16 + r - j` of the stack: no
  row comes round the end, because `j` is at most 16. Each tap multiplies that by one column panel of the weight into a
  zero accumulator, and the four products are added in order onto a zero splat.
-/
import proofs.«109287_j13357348290662_2_alg».proof.Proof.Gen.KernelIdeal.Skeleton
import proofs.«109287_j13357348290662_2_alg».proof.Proof.LibPlainDot
import Idealize.ShloMosaic.Lib.KernelVsHost
import Idealize.ShloMosaic.Lib.Pipeline.Value
import Idealize.ShloMosaic.Lib.ValueIdx
import Idealize.ShloMosaic.PureOps.Ideal.Laws

set_option maxRecDepth 16384

noncomputable section

namespace Cert.KernelIdeal.Payload

open Cert.KernelIdeal Cert.KernelIdeal.Gen
open Idealize.ShloMosaic Idealize.ShloMosaic.ValueIdx

/-- One tap: rows `16 + r - j` of the stack against a panel of the weight, summed over the 1024 columns of the stack. -/
theorem tap_apply (v8 : FVec Ideal S1040x1024 .bf16) (w : Vec Ideal S1024x1024 .bf16) (sb : BitVec 32) (j : Nat)
    (hsb : sb.toNat = j) (hj : j ≤ 16) (r e : Fin 1024) :
    matmul dot_S1024x1024_S1024x1024_S1024x1024_1_0_0_1_n_n none
        (extractStridedSlice S1024x1024 ![16, 0] (dynamicRotate 0 sb none v8 rotates_S1040x1024_d0) slices_S1040x1024_o16_0_S1024x1024)
        (shapeCast S1024x1024 w shapeCasts_S1024x1024_S1024x1024 : FVec Ideal S1024x1024 .bf16) (constant S1024x1024 .f32 0x00000000#32) (ix2 r e)
      = ∑ k : Fin 1024, v8 (ix2 (⟨16 + r.val - j, by have := r.isLt; omega⟩ : Fin 1040) k) * w (ix2 k e) := by
  refine (Cert.Lib.PlainDot.matmul_zero_apply 1024 1024 1024 none _ _ (ix2 r e)).trans ?_
  refine Finset.sum_congr rfl fun k _ => ?_
  refine congrArg₂ (· * ·) ?_ ?_
  · refine (extractStridedSlice_apply ![16, 0] _ slices_S1040x1024_o16_0_S1024x1024 (ix2 r k)
      (ix2 (⟨16 + r.val, by have := r.isLt; omega⟩ : Fin 1040) k) (fun a => by
        match a with
        | ⟨0, _⟩ => rfl
        | ⟨1, _⟩ => exact (Nat.zero_add _).symm)).trans ?_
    refine dynamicRotate_apply 0 sb v8 rotates_S1040x1024_d0 _ (ix2 (⟨16 + r.val - j, by have := r.isLt; omega⟩ : Fin 1040) k) (fun b => by
      by_cases hb : b = 0
      · subst hb
        rw [if_pos rfl, hsb]
        show 16 + r.val - j = ((16 + r.val) + 1040 - j % 1040) % 1040
        have := r.isLt; omega
      · rw [if_neg hb]
        have hb2 : b.val < 2 := b.isLt
        have hb1 : b = 1 := Fin.ext (by have : b.val ≠ 0 := fun h => hb (Fin.ext h); show b.val = 1; omega)
        subst hb1; rfl)
  · exact congrFun (shapeCast_self w shapeCasts_S1024x1024_S1024x1024) _

/-- The first tile of a sequence is recognised by its grid coordinate being zero. -/
theorem first_tile_bit (n : Nat) (hn : n < 4) : Scalar.cmpi .eq (BitVec.ofNat 32 n) 0#32 = 1#1 ↔ n = 0 := by
  interval_cases n <;> decide

/-- The stack at row `ρ`: a halo row (zero at the first tile of a sequence) for `ρ < 16`, else row `ρ - 16` of the tile. -/
theorem stack_apply (i : grid0.Coords) (x1 : Vec Ideal S1x16x1024 .f32) (x0 : Vec Ideal S1x1024x1024 .f32) (ρ : Fin 1040) (k : Fin 1024) :
    k0_pay2 (F := Ideal) i x1 x0 (ix2 ρ k)
      = if h : ρ.val < 16 then (if (i 1).val = 0 then 0 else x1 (ix3 (0 : Fin 1) (⟨ρ.val, h⟩ : Fin 16) k))
        else x0 (ix3 (0 : Fin 1) (⟨ρ.val - 16, by have := ρ.isLt; omega⟩ : Fin 1024) k) := by
  unfold k0_pay2
  dsimp only
  refine (truncf_apply _ bitsLt_bf16_f32 (ix2 ρ k)).trans ?_
  by_cases h : ρ.val < 16
  · rw [dif_pos h]
    refine (concatenate_pair_apply_left 0 _ _ concatenates_S16x1024_S1024x1024_S1040x1024_d0 (ix2 ρ k) rfl
      (ix2 (⟨ρ.val, h⟩ : Fin 16) k) (fun b => by
        have hb2 : b.val < 2 := b.isLt
        by_cases hb : b = 0
        · subst hb; rfl
        · have hb1 : b = 1 := Fin.ext (by have : b.val ≠ 0 := fun h => hb (Fin.ext h); show b.val = 1; omega)
          subst hb1; rfl)).trans ?_
    by_cases hi : (i 1).val = 0
    · rw [if_pos hi]
      have hbit : Scalar.cmpi .eq (BitVec.ofNat 32 (i 1).val) 0#32 = 1#1 := (first_tile_bit _ (i 1).isLt).mpr hi
      rw [hbit]
      show Ideal.ofBits .f32 0x00000000#32 = 0
      exact Ideal.ofBits_zero_f32
    · rw [if_neg hi]
      have hbit : ¬ Scalar.cmpi .eq (BitVec.ofNat 32 (i 1).val) 0#32 = 1#1 := fun hh => hi ((first_tile_bit _ (i 1).isLt).mp hh)
      have hs : ∀ (a b : S16x1024.Idx → Ideal .f32), Scalar.select (Scalar.cmpi .eq (BitVec.ofNat 32 (i 1).val) 0#32) a b = b :=
        fun a b => if_neg hbit
      rw [hs]
      exact shapeCast_dropUnit_apply ![16, 1024] x1 shapeCasts_S1x16x1024_S16x1024 (ix2 (⟨ρ.val, h⟩ : Fin 16) k) |>.trans
        (congrArg x1 (funext fun a => by match a with | ⟨0, _⟩ => rfl | ⟨1, _⟩ => rfl | ⟨2, _⟩ => rfl))
  · rw [dif_neg h]
    refine (concatenate_pair_apply_right 0 _ _ concatenates_S16x1024_S1024x1024_S1040x1024_d0 (ix2 ρ k) rfl rfl
      (ix2 (⟨ρ.val - 16, by have := ρ.isLt; omega⟩ : Fin 1024) k) (fun b hb => by
        have hb2 : b.val < 2 := b.isLt
        have hb1 : b = 1 := Fin.ext (by have : b.val ≠ 0 := fun h => hb (Fin.ext h); show b.val = 1; omega)
        subst hb1; rfl) (by show ρ.val - 16 + 16 = ρ.val; omega)).trans ?_
    exact shapeCast_dropUnit_apply ![1024, 1024] x0 shapeCasts_S1x1024x1024_S1024x1024 (ix2 (⟨ρ.val - 16, by have := ρ.isLt; omega⟩ : Fin 1024) k) |>.trans
      (congrArg x0 (funext fun a => by match a with | ⟨0, _⟩ => rfl | ⟨1, _⟩ => rfl | ⟨2, _⟩ => rfl))

/-- The stored block at row `r`, column `e`: the four taps over the stack, added in order onto zero. -/
theorem payload_apply (i : grid0.Coords) (x1 : Vec Ideal S1x16x1024 .f32) (x0 : Vec Ideal S1x1024x1024 .f32)
    (w0 w1 w2 w3 : Vec Ideal S1024x1024 .bf16) (r e : Fin 1024) :
    k0_pay1 (F := Ideal) (k0_pay3 i x1 x0 w0 w1 w2) (k0_pay4 i x1 x0 w3) (ix3 (0 : Fin 1) r e)
      = ((((0 : EReal) + ∑ k : Fin 1024, k0_pay2 (F := Ideal) i x1 x0 (ix2 (⟨16 + r.val - 0, by have := r.isLt; omega⟩ : Fin 1040) k) * w0 (ix2 k e))
          + ∑ k : Fin 1024, k0_pay2 (F := Ideal) i x1 x0 (ix2 (⟨16 + r.val - 1, by have := r.isLt; omega⟩ : Fin 1040) k) * w1 (ix2 k e))
          + ∑ k : Fin 1024, k0_pay2 (F := Ideal) i x1 x0 (ix2 (⟨16 + r.val - 2, by have := r.isLt; omega⟩ : Fin 1040) k) * w2 (ix2 k e))
        + ∑ k : Fin 1024, k0_pay2 (F := Ideal) i x1 x0 (ix2 (⟨16 + r.val - 3, by have := r.isLt; omega⟩ : Fin 1040) k) * w3 (ix2 k e) := by
  unfold k0_pay1 k0_pay3 k0_pay4
  dsimp only
  refine (shapeCast_apply _ shapeCasts_S1024x1024_S1x1024x1024 (ix3 (0 : Fin 1) r e) (ix2 r e) (by
    rewrite [Shape.rowMajor_val_two, Shape.rowMajor_val_three]
    show r.val * 1024 + e.val = ((0 : ℕ) * 1024 + r.val) * 1024 + e.val
    omega)).trans ?_
  refine congrArg₂ (· + ·) (congrArg₂ (· + ·) (congrArg₂ (· + ·) (congrArg₂ (· + ·) Ideal.ofBits_zero_f32 ?_) ?_) ?_) ?_
  · exact tap_apply _ w0 0#32 0 rfl (by omega) r e
  · exact tap_apply _ w1 1#32 1 rfl (by omega) r e
  · exact tap_apply _ w2 2#32 2 rfl (by omega) r e
  · exact tap_apply _ w3 3#32 3 rfl (by omega) r e

end Cert.KernelIdeal.Payload

end
-- ==== Proof.ConvSpec.lean ====
/-
  The causal tap convolution, index by index, over the extended reals.

  `X` is a batch of 2 sequences of 4096 rows of 1024 entries; `W` is 4 blocks of 1024 rows of 1024 entries. Tap `i` of the
  result at row `t` and column `e` is the inner product of row `t - i` of the sequence with row `i * 1024 + e` of `W`, and
  zero for the first `i` rows of a sequence, which have no row `i` places back. The result is the four taps added in order.
-/
import Idealize.ShloMosaic.PureOps.Ideal
import Idealize.ShloMosaic.Lib.ValueIdx

noncomputable section

namespace Cert.ConvSpec

open Idealize.ShloMosaic Idealize.ShloMosaic.ValueIdx

/-- One tap of the convolution. -/
def tap (X : (⟨3, ![2, 4096, 1024]⟩ : Shape).Idx → EReal) (W : (⟨2, ![4096, 1024]⟩ : Shape).Idx → EReal)
    (i : Fin 4) (b : Fin 2) (t : Fin 4096) (e : Fin 1024) : EReal :=
  if h : i.val ≤ t.val then
    ∑ k : Fin 1024, X (ix3 b (⟨t.val - i.val, by have := t.isLt; omega⟩ : Fin 4096) k)
      * W (ix2 (⟨i.val * 1024 + e.val, by have := i.isLt; have := e.isLt; omega⟩ : Fin 4096) k)
  else 0

/-- The four taps, added in order. -/
def conv (X : (⟨3, ![2, 4096, 1024]⟩ : Shape).Idx → EReal) (W : (⟨2, ![4096, 1024]⟩ : Shape).Idx → EReal) :
    (⟨3, ![2, 4096, 1024]⟩ : Shape).Idx → EReal :=
  fun j => ((tap X W 0 (j 0) (j 1) (j 2) + tap X W 1 (j 0) (j 1) (j 2)) + tap X W 2 (j 0) (j 1) (j 2)) + tap X W 3 (j 0) (j 1) (j 2)

theorem conv_apply (X : (⟨3, ![2, 4096, 1024]⟩ : Shape).Idx → EReal) (W : (⟨2, ![4096, 1024]⟩ : Shape).Idx → EReal)
    (b : Fin 2) (t : Fin 4096) (e : Fin 1024) :
    conv X W (ix3 b t e) = ((tap X W 0 b t e + tap X W 1 b t e) + tap X W 2 b t e) + tap X W 3 b t e := rfl

end Cert.ConvSpec

end
-- ==== Proof.KernelBlock.lean ====
/-
  One block of the result is one block of the convolution.

  At a tile of 1024 rows starting at row `1024 * ti` of sequence `b`, the stack's row `16 + r - j` is row
  `1024 * ti + r - j` of the sequence wherever that row exists: a tile row when `j ≤ r`, and otherwise one of the last 16
  rows of the tile before, which is what the halo block holds when `ti > 0`. When `ti = 0` and `r < j` the stack's row is
  zero, every product in the tap's sum is zero, and so is the convolution's tap there. The accumulation starts from zero,
  which changes nothing.
-/
import proofs.«109287_j13357348290662_2_alg».proof.Proof.KernelPayload
import proofs.«109287_j13357348290662_2_alg».proof.Proof.ConvSpec

set_option maxRecDepth 16384

noncomputable section

namespace Cert.KernelIdeal.Payload

open Cert.KernelIdeal Cert.KernelIdeal.Gen Cert.ConvSpec
open Idealize.ShloMosaic Idealize.ShloMosaic.ValueIdx

variable (i : grid0.Coords) (x1 : Vec Ideal S1x16x1024 .f32) (x0 : Vec Ideal S1x1024x1024 .f32)
  (X : (⟨3, ![2, 4096, 1024]⟩ : Shape).Idx → EReal) (W : (⟨2, ![4096, 1024]⟩ : Shape).Idx → EReal) (b : Fin 2) (ti : Fin 4)

/-- One tap of the body is one tap of the convolution. -/
theorem tap_eq (hi : (i 1).val = ti.val)
    (h0 : ∀ (r k : Fin 1024), x0 (ix3 (0 : Fin 1) r k) = X (ix3 b (⟨1024 * ti.val + r.val, by have := ti.isLt; have := r.isLt; omega⟩ : Fin 4096) k))
    (h1 : ti.val ≠ 0 → ∀ (ρ : Fin 16) (k : Fin 1024),
      x1 (ix3 (0 : Fin 1) ρ k) = X (ix3 b (⟨1024 * ti.val - 16 + ρ.val, by have := ti.isLt; have := ρ.isLt; omega⟩ : Fin 4096) k))
    (j : Fin 4) (w : Vec Ideal S1024x1024 .bf16)
    (hw : ∀ k e : Fin 1024, w (ix2 k e) = W (ix2 (⟨j.val * 1024 + e.val, by have := j.isLt; have := e.isLt; omega⟩ : Fin 4096) k))
    (r e : Fin 1024) :
    ∑ k : Fin 1024, k0_pay2 (F := Ideal) i x1 x0 (ix2 (⟨16 + r.val - j.val, by have := r.isLt; omega⟩ : Fin 1040) k) * w (ix2 k e)
      = tap X W j b (⟨1024 * ti.val + r.val, by have := ti.isLt; have := r.isLt; omega⟩ : Fin 4096) e := by
  have hr := r.isLt
  have hj := j.isLt
  have hti := ti.isLt
  unfold tap
  by_cases hjt : j.val ≤ 1024 * ti.val + r.val
  · rw [dif_pos hjt]
    refine Finset.sum_congr rfl fun k _ => ?_
    rw [stack_apply, hw]
    refine congrArg (· * _) ?_
    by_cases hρ : 16 + r.val - j.val < 16
    · have hne : ti.val ≠ 0 := by omega
      rw [dif_pos hρ, if_neg (by rw [hi]; exact hne), h1 hne]
      refine congrArg X (congrArg (fun t => ix3 b t k) (Fin.ext ?_))
      show 1024 * ti.val - 16 + (16 + r.val - j.val) = 1024 * ti.val + r.val - j.val
      omega
    · rw [dif_neg hρ, h0]
      refine congrArg X (congrArg (fun t => ix3 b t k) (Fin.ext ?_))
      show 1024 * ti.val + (16 + r.val - j.val - 16) = 1024 * ti.val + r.val - j.val
      omega
  · rw [dif_neg hjt]
    refine Finset.sum_eq_zero fun k _ => ?_
    have hρ : 16 + r.val - j.val < 16 := by omega
    have h0' : (i 1).val = 0 := by rw [hi]; omega
    rw [stack_apply, dif_pos hρ, if_pos h0', zero_mul]

/-- The stored block, entry by entry, is the convolution at the tile's rows. -/
theorem block_apply (hi : (i 1).val = ti.val)
    (h0 : ∀ (r k : Fin 1024), x0 (ix3 (0 : Fin 1) r k) = X (ix3 b (⟨1024 * ti.val + r.val, by have := ti.isLt; have := r.isLt; omega⟩ : Fin 4096) k))
    (h1 : ti.val ≠ 0 → ∀ (ρ : Fin 16) (k : Fin 1024),
      x1 (ix3 (0 : Fin 1) ρ k) = X (ix3 b (⟨1024 * ti.val - 16 + ρ.val, by have := ti.isLt; have := ρ.isLt; omega⟩ : Fin 4096) k))
    (w0 w1 w2 w3 : Vec Ideal S1024x1024 .bf16)
    (hw0 : ∀ k e : Fin 1024, w0 (ix2 k e) = W (ix2 (⟨(0 : Fin 4).val * 1024 + e.val, by have := e.isLt; omega⟩ : Fin 4096) k))
    (hw1 : ∀ k e : Fin 1024, w1 (ix2 k e) = W (ix2 (⟨(1 : Fin 4).val * 1024 + e.val, by have := e.isLt; omega⟩ : Fin 4096) k))
    (hw2 : ∀ k e : Fin 1024, w2 (ix2 k e) = W (ix2 (⟨(2 : Fin 4).val * 1024 + e.val, by have := e.isLt; omega⟩ : Fin 4096) k))
    (hw3 : ∀ k e : Fin 1024, w3 (ix2 k e) = W (ix2 (⟨(3 : Fin 4).val * 1024 + e.val, by have := e.isLt; omega⟩ : Fin 4096) k))
    (r e : Fin 1024) :
    k0_pay1 (F := Ideal) (k0_pay3 i x1 x0 w0 w1 w2) (k0_pay4 i x1 x0 w3) (ix3 (0 : Fin 1) r e)
      = conv X W (ix3 b (⟨1024 * ti.val + r.val, by have := ti.isLt; have := r.isLt; omega⟩ : Fin 4096) e) := by
  rw [payload_apply, conv_apply, zero_add]
  exact congrArg₂ (· + ·) (congrArg₂ (· + ·) (congrArg₂ (· + ·)
    (tap_eq i x1 x0 X W b ti hi h0 h1 0 w0 hw0 r e) (tap_eq i x1 x0 X W b ti hi h0 h1 1 w1 hw1 r e))
    (tap_eq i x1 x0 X W b ti hi h0 h1 2 w2 hw2 r e)) (tap_eq i x1 x0 X W b ti hi h0 h1 3 w3 hw3 r e)

end Cert.KernelIdeal.Payload

end
-- ==== Proof.KernelValue.lean ====
/-
  The result array of the idealized kernel after the run, as one function of the argument arrays.

  Grid point `t` has coordinates (sequence `b`, tile `ti`). Its tile window reads rows `1024 * ti` onwards of sequence `b`, its
  halo window the 16 rows before them (block `64 * ti - 1` of 16 rows; block 0 when `ti = 0`, where the body ignores it), its
  weight window the whole transposed weight, and its result window writes rows `1024 * ti` onwards of sequence `b`. So what
  the point writes back is that block of the convolution, the eight blocks tile the result array, and the array ends as the
  convolution of the arguments.
-/
import proofs.«109287_j13357348290662_2_alg».proof.Proof.LaunchKI
import proofs.«109287_j13357348290662_2_alg».proof.Proof.KernelBlock
import Idealize.ShloMosaic.Lib.StableHlo.Run

set_option maxRecDepth 16384

noncomputable section

namespace Cert.KernelIdeal.ConvValue

open Cert.KernelIdeal Cert.KernelIdeal.Gen Cert.KernelIdeal.Conv Cert.KernelIdeal.Payload Cert.ConvSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz3 : (![0, 0, 0] : Fin 3 → Nat) = fun _ => 0 := funext fun a => by fin_cases a <;> rfl

/-- A column panel of the weight block, read at an entry. -/
theorem panel_idx (j : Fin 4) (inb : ∀ a, (![0, j.val * 1024] : Fin 2 → Nat) a + S1024x1024.size a ≤ S1024x4096.size a) (k e : Fin 1024) :
    (Rect.unit (s := S1024x4096) ![0, j.val * 1024] S1024x1024.size inb).idx (ix2 k e)
      = ix2 k (⟨j.val * 1024 + e.val, by have := j.isLt; have := e.isLt; omega⟩ : Fin 4096) := by
  funext a; apply Fin.ext
  match a with
  | ⟨0, _⟩ => show 0 + 1 * k.val = k.val; omega
  | ⟨1, _⟩ => show j.val * 1024 + 1 * e.val = j.val * 1024 + e.val; omega

/-- The stored block, entry by entry, from blocks that are the tile, the halo and the transposed weight. -/
theorem outBlk_apply (i : grid0.Coords) (x0 : Vec Ideal S1x1024x1024 .f32) (x1 : Vec Ideal S1x16x1024 .f32) (x2 : Vec Ideal S1024x4096 .bf16)
    (X : (⟨3, ![2, 4096, 1024]⟩ : Shape).Idx → EReal) (W : (⟨2, ![4096, 1024]⟩ : Shape).Idx → EReal) (b : Fin 2) (ti : Fin 4)
    (hi : (i 1).val = ti.val)
    (h0 : ∀ (r k : Fin 1024), x0 (ix3 (0 : Fin 1) r k) = X (ix3 b (⟨1024 * ti.val + r.val, by have := ti.isLt; have := r.isLt; omega⟩ : Fin 4096) k))
    (h1 : ti.val ≠ 0 → ∀ (ρ : Fin 16) (k : Fin 1024),
      x1 (ix3 (0 : Fin 1) ρ k) = X (ix3 b (⟨1024 * ti.val - 16 + ρ.val, by have := ti.isLt; have := ρ.isLt; omega⟩ : Fin 4096) k))
    (h2 : ∀ (k : Fin 1024) (c : Fin 4096), x2 (ix2 k c) = W (ix2 c k))
    (r e : Fin 1024) :
    outBlk i x0 x1 x2 (ix3 (0 : Fin 1) r e)
      = conv X W (ix3 b (⟨1024 * ti.val + r.val, by have := ti.isLt; have := r.isLt; omega⟩ : Fin 4096) e) := by
  unfold outBlk
  rw [View.canon_unit_zero hz3]
  simp only [View.ld_unit_zero (S := S1x1024x1024) hz3, View.ld_unit_zero (S := S1x16x1024) hz3]
  refine block_apply i x1 x0 X W b ti hi h0 h1 _ _ _ _ ?_ ?_ ?_ ?_ r e
  · intro k e
    show x2 ((Rect.unit (s := S1024x4096) ![0, (0 : Fin 4).val * 1024] S1024x1024.size inb_S1024x4096_S1024x1024_0_0).idx (ix2 k e)) = _
    rw [panel_idx 0, h2]
  · intro k e
    show x2 ((Rect.unit (s := S1024x4096) ![0, (1 : Fin 4).val * 1024] S1024x1024.size inb_S1024x4096_S1024x1024_0_1024).idx (ix2 k e)) = _
    rw [panel_idx 1, h2]
  · intro k e
    show x2 ((Rect.unit (s := S1024x4096) ![0, (2 : Fin 4).val * 1024] S1024x1024.size inb_S1024x4096_S1024x1024_0_2048).idx (ix2 k e)) = _
    rw [panel_idx 2, h2]
  · intro k e
    show x2 ((Rect.unit (s := S1024x4096) ![0, (3 : Fin 4).val * 1024] S1024x1024.size inb_S1024x4096_S1024x1024_0_3072).idx (ix2 k e)) = _
    rw [panel_idx 3, h2]

/-! ## The weight's window reads the transposed weight -/

/-- The narrowed transposed weight at the region's entry: entry `(k, c)` is entry `(c, k)` of `W`. -/
theorem weight_apply (c : Dev nD) (k : Fin 1024) (c' : Fin 4096) :
    (V m c main_v1 : S1024x4096.Idx → EReal) (ix2 k c') = (m ((c : Thread nD τ).loc main_arg1) : S4096x1024.Idx → EReal) (ix2 c' k) := by
  have e : (V m c main_v1 : S1024x4096.Idx → EReal)
      = truncf (F := Ideal) .bf16 (transpose S1024x4096 [1, 0] (m ((c : Thread nD τ).loc main_arg1) : S4096x1024.Idx → EReal) transposes_S4096x1024_S1024x4096_1_0) bitsLt_bf16_f32 := by
    dsimp only [V, hostOps0]; after_results <;> rfl
  rw [e]
  refine (truncf_apply _ bitsLt_bf16_f32 (ix2 k c')).trans ?_
  exact transpose_apply [1, 0] _ transposes_S4096x1024_S1024x4096_1_0 (ix2 k c') (ix2 c' k) (fun b => by
    have hb2 : b.val < 2 := b.isLt
    by_cases hb : b = 0
    · subst hb; rfl
    · have hb1 : b = 1 := Fin.ext (by have : b.val ≠ 0 := fun h => hb (Fin.ext h); show b.val = 1; omega)
      subst hb1; rfl)

/-! ## The windows' index maps over the grid -/

/-- The printed index maps, decided over the eight grid points: the tile's and the result's block is (sequence, tile);
    the halo's block is the 16-row block just before the tile, block 0 at the first tile; the weight's is the one
    block. -/
theorem idx_facts : ∀ t : Fin cfg0.N,
    (grid0.coords t 0).val < 2 ∧ (grid0.coords t 1).val < 4
    ∧ win0_0.index t (0 : Fin 3) = (grid0.coords t 0).val ∧ win0_0.index t (1 : Fin 3) = (grid0.coords t 1).val ∧ win0_0.index t (2 : Fin 3) = 0
    ∧ win0_1.index t (0 : Fin 3) = (grid0.coords t 0).val
    ∧ win0_1.index t (1 : Fin 3) = (if (grid0.coords t 1).val = 0 then 0 else 64 * (grid0.coords t 1).val - 1)
    ∧ win0_1.index t (2 : Fin 3) = 0
    ∧ win0_2.index t (0 : Fin 2) = 0 ∧ win0_2.index t (1 : Fin 2) = 0
    ∧ win0_3.index t (0 : Fin 3) = (grid0.coords t 0).val ∧ win0_3.index t (1 : Fin 3) = (grid0.coords t 1).val ∧ win0_3.index t (2 : Fin 3) = 0 :=
  (by decide +kernel : ∀ t : Fin grid0.N, _)

/-- Every block of the result is some point's. -/
theorem idx_onto : ∀ (q0 : Fin 2) (q1 : Fin 4), ∃ t : Fin cfg0.N, win0_3.index t = ![q0.val, q1.val, 0] :=
  (by decide +kernel : ∀ (q0 : Fin 2) (q1 : Fin 4), ∃ t : Fin grid0.N, win0_3.index t = ![q0.val, q1.val, 0])

/-! ## What a point writes back -/

/-- Point `t` writes back its block of the convolution of the argument arrays. -/
theorem flushed_eq (c : Dev nD) (t : Fin cfg0.N) :
    (dats m 0 c).flushed 3 t = ((cfg0.win 3).blk t).view.read (Elt Ideal)
      (conv (m ((c : Thread nD τ).loc main_arg0)) (m ((c : Thread nD τ).loc main_arg1))) := by
  show (cfg0.win 3).cut (grid0.coords t) ((dats m 0 c).after 3 t) = _
  rw [after_out]
  obtain ⟨hb, hti, a00, a01, a02, a10, a11, a12, a20, a21, a30, a31, a32⟩ := idx_facts t
  funext y
  obtain ⟨z, r, e, rfl⟩ : ∃ (z : Fin 1) (r : Fin 1024) (e : Fin 1024), y = ix3 z r e := ⟨y 0, y 1, y 2, eq_ix3 y⟩
  obtain rfl : z = 0 := Subsingleton.elim _ _
  have hr := r.isLt
  have he := e.isLt
  show outBlk (grid0.coords t) (iblk m c 0 t) (iblk m c 1 t) (iblk m c 2 t) (ix3 (0 : Fin 1) r e)
    = conv (m ((c : Thread nD τ).loc main_arg0)) (m ((c : Thread nD τ).loc main_arg1)) (((cfg0.win 3).blk t).view.emb (ix3 (0 : Fin 1) r e))
  refine (outBlk_apply (grid0.coords t) (iblk m c 0 t) (iblk m c 1 t) (iblk m c 2 t)
    (m ((c : Thread nD τ).loc main_arg0)) (m ((c : Thread nD τ).loc main_arg1))
    (⟨(grid0.coords t 0).val, hb⟩ : Fin 2) (⟨(grid0.coords t 1).val, hti⟩ : Fin 4) rfl ?_ ?_ ?_ r e).trans ?_
  · intro r k
    have hr := r.isLt
    show V m c main_arg0 (((cfg0.win 0).blk t).view.emb (ix3 (0 : Fin 1) r k)) = _
    rw [V_main_arg0]
    refine congrArg (m ((c : Thread nD τ).loc main_arg0)) (funext fun a => Fin.ext ?_)
    match a with
    | ⟨0, _⟩ => show win0_0.index t (0 : Fin 3) * 1 + 1 * 0 = (grid0.coords t 0).val; omega
    | ⟨1, _⟩ => show win0_0.index t (1 : Fin 3) * 1024 + 1 * r.val = 1024 * (grid0.coords t 1).val + r.val; omega
    | ⟨2, _⟩ => show win0_0.index t (2 : Fin 3) * 1024 + 1 * k.val = k.val; omega
  · intro hne ρ' k
    have hρ := ρ'.isLt
    have hne' : (grid0.coords t 1).val ≠ 0 := hne
    rw [if_neg hne'] at a11
    show V m c main_arg0 (((cfg0.win 1).blk t).view.emb (ix3 (0 : Fin 1) ρ' k)) = _
    rw [V_main_arg0]
    refine congrArg (m ((c : Thread nD τ).loc main_arg0)) (funext fun a => Fin.ext ?_)
    match a with
    | ⟨0, _⟩ => show win0_1.index t (0 : Fin 3) * 1 + 1 * 0 = (grid0.coords t 0).val; omega
    | ⟨1, _⟩ => show win0_1.index t (1 : Fin 3) * 16 + 1 * ρ'.val = 1024 * (grid0.coords t 1).val - 16 + ρ'.val; omega
    | ⟨2, _⟩ => show win0_1.index t (2 : Fin 3) * 1024 + 1 * k.val = k.val; omega
  · intro k c'
    have hk := k.isLt
    have hc := c'.isLt
    show V m c main_v1 (((cfg0.win 2).blk t).view.emb (ix2 k c')) = _
    have hemb : ((cfg0.win 2).blk t).view.emb (ix2 k c') = ix2 k c' := by
      funext a; apply Fin.ext
      match a with
      | ⟨0, _⟩ => show win0_2.index t (0 : Fin 2) * 1024 + 1 * k.val = k.val; omega
      | ⟨1, _⟩ => show win0_2.index t (1 : Fin 2) * 4096 + 1 * c'.val = c'.val; omega
    rw [hemb]
    exact weight_apply m c k c'
  · refine congrArg (conv _ _) (funext fun a => Fin.ext ?_)
    match a with
    | ⟨0, _⟩ => show (grid0.coords t 0).val = win0_3.index t (0 : Fin 3) * 1 + 1 * 0; omega
    | ⟨1, _⟩ => show 1024 * (grid0.coords t 1).val + r.val = win0_3.index t (1 : Fin 3) * 1024 + 1 * r.val; omega
    | ⟨2, _⟩ => show e.val = win0_3.index t (2 : Fin 3) * 1024 + 1 * e.val; omega

/-! ## The blocks tile the result -/

theorem mem_blk (t : Fin cfg0.N) (i : S2x4096x1024.Idx) :
    i ∈ ((cfg0.win 3).blk t).view.set ↔ ∀ a : Fin 3, win0_3.index t a * S1x1024x1024.size a ≤ (i a).val ∧ (i a).val < win0_3.index t a * S1x1024x1024.size a + S1x1024x1024.size a := by
  show i ∈ ((View.whole main_v2).slice (win0_3.rect t)).set ↔ _
  rw [View.set_slice_whole, Rect.mem_set_unit]
  exact Iff.rfl

/-- Every entry of the result is in the block of the point with its sequence and its tile. -/
theorem cover (i : S2x4096x1024.Idx) : ∃ t : Fin cfg0.N, (cfg0.win 3).flush t = true ∧ i ∈ ((cfg0.win 3).blk t).view.set := by
  have hi0 : (i 0).val < 2 := (i 0).isLt
  have hi1 : (i 1).val < 4096 := (i 1).isLt
  have hi2 : (i 2).val < 1024 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 1024 ≤ (i 2).val ∧ (i 2).val < win0_3.index t (2 : Fin 3) * 1024 + 1024; omega

/-- The result array after the run is the convolution of the argument arrays. -/
theorem final (c : Dev nD) : (dats m 0 c).arrAt 3 cfg0.N
    = conv (m ((c : Thread nD τ).loc main_arg0)) (m ((c : Thread nD τ).loc main_arg1)) :=
  (dats m 0 c).arrAt_eq_of_cover 3 _ (fun t _ => flushed_eq m c t) cover

/-! ## The run, read -/

/-- Every weakly fair execution terminates with the result array at the convolution of the arguments and the arguments
    unchanged. -/
theorem run : θ_run defs (onTc (τ := τ) (main (F := Ideal))) ⟨m, fun _ => 0, ρ⟩ fun r => ∀ c : Dev nD,
      r.2.mem ((c.tc : Thread nD τ).loc main_v2) = conv (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩) (run_main m ρ)

end Cert.KernelIdeal.ConvValue

end
-- ==== Proof.RefValue.lean ====
/-
  The reference, read at an index, is the convolution.

  The reference multiplies every row of `X` by all of `W` at once, views the 4096 result columns as 4 blocks of 1024, and
  adds to block 0 the blocks 1, 2, 3 moved down 1, 2, 3 rows behind rows of zeros. Row `t`, block `i`, column `e` of the
  product is the inner product of row `t` of `X` with row `i * 1024 + e` of `W`; moved down `i` rows it is read at row `t - i`,
  and the rows of zeros are the converted integer zero.
-/
import proofs.«109287_j13357348290662_2_alg».proof.Proof.Gen.ReferenceIdeal.Read
import proofs.«109287_j13357348290662_2_alg».proof.Proof.ConvSpec
import Idealize.ShloMosaic.Lib.KernelVsHost

set_option maxRecDepth 16384

noncomputable section

namespace Cert.ReferenceIdeal.ConvValue

open Cert.ReferenceIdeal Cert.ReferenceIdeal.Gen Cert.ReferenceIdeal.Read Cert.ConvSpec
open Idealize.ShloMosaic Idealize.ShloMosaic.ValueIdx

variable (X : (⟨S2x4096x1024, .f32⟩ : BufTy).Contents (Elt Ideal)) (W : (⟨S4096x1024, .f32⟩ : BufTy).Contents (Elt Ideal))

/-- The product viewed in 4 blocks, at row `t`, block `i`, column `e`. -/
theorem product_apply (b : Fin 2) (t : Fin 4096) (i : Fin 4) (e : Fin 1024) :
    val_main_v1 (F := Ideal) X W (ix4 b t i e)
      = ∑ k : Fin 1024, X (ix3 b t k) * W (ix2 (⟨i.val * 1024 + e.val, by have := i.isLt; have := e.isLt; omega⟩ : Fin 4096) k) := by
  have ht := t.isLt
  have he := e.isLt
  have hb := b.isLt
  have hi := i.isLt
  rw [val_main_v1_apply, val_main_v0_apply]
  refine Finset.sum_congr rfl fun k _ => ?_
  refine congrArg₂ (· * ·) (congrArg X ?_) (congrArg W ?_)
  · funext a; apply Fin.ext
    match a with
    | ⟨0, _⟩ => show (((b.val * 4096 + t.val) * 4 + i.val) * 1024 + e.val) / 16777216 = b.val; omega
    | ⟨1, _⟩ => show (((b.val * 4096 + t.val) * 4 + i.val) * 1024 + e.val) / 4096 % 4096 = t.val; omega
    | ⟨2, _⟩ => rfl
  · funext a; apply Fin.ext
    match a with
    | ⟨0, _⟩ => show (((b.val * 4096 + t.val) * 4 + i.val) * 1024 + e.val) % 4096 = i.val * 1024 + e.val; omega
    | ⟨1, _⟩ => rfl

/-- Tap 0 of the reference: block 0 of the product, unmoved. -/
theorem tap0_eq (b : Fin 2) (t : Fin 4096) (e : Fin 1024) :
    val_main_v3 (F := Ideal) X W (ix3 b t e) = tap X W 0 b t e := by
  have ht := t.isLt
  have he := e.isLt
  have hb := b.isLt
  rw [val_main_v3_apply, val_main_v2_apply]
  have hidx : idx_main_v2 (idx_main_v3 (ix3 b t e)) = ix4 b t (0 : Fin 4) e := by
    funext a; apply Fin.ext
    match a with
    | ⟨0, _⟩ => show ((b.val * 4096 + t.val) * 1024 + e.val) / 4194304 = b.val; omega
    | ⟨1, _⟩ => show ((b.val * 4096 + t.val) * 1024 + e.val) / 1024 % 4096 = t.val; omega
    | ⟨2, _⟩ => rfl
    | ⟨3, _⟩ => show ((b.val * 4096 + t.val) * 1024 + e.val) % 1024 = e.val; omega
  rw [hidx, product_apply]
  unfold tap
  rw [dif_pos (show ((0 : Fin 4) : ℕ) ≤ t.val from Nat.zero_le _)]
  rfl

/-- Tap 1 of the reference: the product's rows of block 1, moved down 1 rows behind 1 rows of the converted integer zero. -/
theorem tap1_eq (b : Fin 2) (t : Fin 4096) (e : Fin 1024) :
    val_main_v6 (F := Ideal) X W (ix3 b t e) = tap X W 1 b t e := by
  have ht := t.isLt
  have he := e.isLt
  have hb := b.isLt
  unfold val_main_v6 tap
  by_cases h : 1 ≤ t.val
  · rw [dif_pos (show ((1 : Fin 4) : ℕ) ≤ t.val from h)]
    refine (pad_apply_of_inside (s := S2x4095x1024) (t := S2x4096x1024) ![0, 1, 0] ![0, 0, 0] ![0, 0, 0] _ _ pads_S2x4095x1024_S2x4096x1024_000_100_000 h_S_ (ix3 b t e)
      (ix3 b (⟨t.val - 1, by omega⟩ : Fin 4095) e) (fun a => by
        match a with
        | ⟨0, _⟩ => show b.val = 0 + b.val * (0 + 1); omega
        | ⟨1, _⟩ => show t.val = 1 + (t.val - 1) * (0 + 1); omega
        | ⟨2, _⟩ => show e.val = 0 + e.val * (0 + 1); omega)).trans ?_
    rw [val_main_v5_apply, val_main_v4_apply]
    have hidx : idx_main_v4 (idx_main_v5 (ix3 b (⟨t.val - 1, by omega⟩ : Fin 4095) e))
        = ix4 b (⟨t.val - 1, by omega⟩ : Fin 4096) (1 : Fin 4) e := by
      funext a; apply Fin.ext
      match a with
      | ⟨0, _⟩ => show ((b.val * 4095 + (t.val - 1)) * 1024 + e.val) / 4193280 = b.val; omega
      | ⟨1, _⟩ => show ((b.val * 4095 + (t.val - 1)) * 1024 + e.val) / 1024 % 4095 = t.val - 1; omega
      | ⟨2, _⟩ => show 1 + 0 = 1; rfl
      | ⟨3, _⟩ => show ((b.val * 4095 + (t.val - 1)) * 1024 + e.val) % 1024 = e.val; omega
    rw [hidx]
    exact product_apply X W b _ 1 e
  · rw [dif_neg (show ¬ ((1 : Fin 4) : ℕ) ≤ t.val from h)]
    refine (pad_apply_of_not_inside (s := S2x4095x1024) (t := S2x4096x1024) ![0, 1, 0] ![0, 0, 0] ![0, 0, 0] _ _ pads_S2x4095x1024_S2x4096x1024_000_100_000 h_S_ (ix3 b t e) 1 (fun hh => h (show 1 ≤ t.val from hh.1))).trans ?_
    exact sitofp_zero (φ := .f32)

/-- Tap 2 of the reference: the product's rows of block 2, moved down 2 rows behind 2 rows of the converted integer zero. -/
theorem tap2_eq (b : Fin 2) (t : Fin 4096) (e : Fin 1024) :
    val_main_v10 (F := Ideal) X W (ix3 b t e) = tap X W 2 b t e := by
  have ht := t.isLt
  have he := e.isLt
  have hb := b.isLt
  unfold val_main_v10 tap
  by_cases h : 2 ≤ t.val
  · rw [dif_pos (show ((2 : Fin 4) : ℕ) ≤ t.val from h)]
    refine (pad_apply_of_inside (s := S2x4094x1024) (t := S2x4096x1024) ![0, 2, 0] ![0, 0, 0] ![0, 0, 0] _ _ pads_S2x4094x1024_S2x4096x1024_000_200_000 h_S_ (ix3 b t e)
      (ix3 b (⟨t.val - 2, by omega⟩ : Fin 4094) e) (fun a => by
        match a with
        | ⟨0, _⟩ => show b.val = 0 + b.val * (0 + 1); omega
        | ⟨1, _⟩ => show t.val = 2 + (t.val - 2) * (0 + 1); omega
        | ⟨2, _⟩ => show e.val = 0 + e.val * (0 + 1); omega)).trans ?_
    rw [val_main_v9_apply, val_main_v8_apply]
    have hidx : idx_main_v8 (idx_main_v9 (ix3 b (⟨t.val - 2, by omega⟩ : Fin 4094) e))
        = ix4 b (⟨t.val - 2, by omega⟩ : Fin 4096) (2 : Fin 4) e := by
      funext a; apply Fin.ext
      match a with
      | ⟨0, _⟩ => show ((b.val * 4094 + (t.val - 2)) * 1024 + e.val) / 4192256 = b.val; omega
      | ⟨1, _⟩ => show ((b.val * 4094 + (t.val - 2)) * 1024 + e.val) / 1024 % 4094 = t.val - 2; omega
      | ⟨2, _⟩ => show 2 + 0 = 2; rfl
      | ⟨3, _⟩ => show ((b.val * 4094 + (t.val - 2)) * 1024 + e.val) % 1024 = e.val; omega
    rw [hidx]
    exact product_apply X W b _ 2 e
  · rw [dif_neg (show ¬ ((2 : Fin 4) : ℕ) ≤ t.val from h)]
    refine (pad_apply_of_not_inside (s := S2x4094x1024) (t := S2x4096x1024) ![0, 2, 0] ![0, 0, 0] ![0, 0, 0] _ _ pads_S2x4094x1024_S2x4096x1024_000_200_000 h_S_ (ix3 b t e) 1 (fun hh => h (show 2 ≤ t.val from hh.1))).trans ?_
    exact sitofp_zero (φ := .f32)

/-- Tap 3 of the reference: the product's rows of block 3, moved down 3 rows behind 3 rows of the converted integer zero. -/
theorem tap3_eq (b : Fin 2) (t : Fin 4096) (e : Fin 1024) :
    val_main_v14 (F := Ideal) X W (ix3 b t e) = tap X W 3 b t e := by
  have ht := t.isLt
  have he := e.isLt
  have hb := b.isLt
  unfold val_main_v14 tap
  by_cases h : 3 ≤ t.val
  · rw [dif_pos (show ((3 : Fin 4) : ℕ) ≤ t.val from h)]
    refine (pad_apply_of_inside (s := S2x4093x1024) (t := S2x4096x1024) ![0, 3, 0] ![0, 0, 0] ![0, 0, 0] _ _ pads_S2x4093x1024_S2x4096x1024_000_300_000 h_S_ (ix3 b t e)
      (ix3 b (⟨t.val - 3, by omega⟩ : Fin 4093) e) (fun a => by
        match a with
        | ⟨0, _⟩ => show b.val = 0 + b.val * (0 + 1); omega
        | ⟨1, _⟩ => show t.val = 3 + (t.val - 3) * (0 + 1); omega
        | ⟨2, _⟩ => show e.val = 0 + e.val * (0 + 1); omega)).trans ?_
    rw [val_main_v13_apply, val_main_v12_apply]
    have hidx : idx_main_v12 (idx_main_v13 (ix3 b (⟨t.val - 3, by omega⟩ : Fin 4093) e))
        = ix4 b (⟨t.val - 3, by omega⟩ : Fin 4096) (3 : Fin 4) e := by
      funext a; apply Fin.ext
      match a with
      | ⟨0, _⟩ => show ((b.val * 4093 + (t.val - 3)) * 1024 + e.val) / 4191232 = b.val; omega
      | ⟨1, _⟩ => show ((b.val * 4093 + (t.val - 3)) * 1024 + e.val) / 1024 % 4093 = t.val - 3; omega
      | ⟨2, _⟩ => show 3 + 0 = 3; rfl
      | ⟨3, _⟩ => show ((b.val * 4093 + (t.val - 3)) * 1024 + e.val) % 1024 = e.val; omega
    rw [hidx]
    exact product_apply X W b _ 3 e
  · rw [dif_neg (show ¬ ((3 : Fin 4) : ℕ) ≤ t.val from h)]
    refine (pad_apply_of_not_inside (s := S2x4093x1024) (t := S2x4096x1024) ![0, 3, 0] ![0, 0, 0] ![0, 0, 0] _ _ pads_S2x4093x1024_S2x4096x1024_000_300_000 h_S_ (ix3 b t e) 1 (fun hh => h (show 3 ≤ t.val from hh.1))).trans ?_
    exact sitofp_zero (φ := .f32)

/-- The reference's result is the convolution of its arguments. -/
theorem ref_eq : val_main_v15 (F := Ideal) X W = conv X W := by
  funext j
  obtain ⟨b, t, e, rfl⟩ : ∃ (b : Fin 2) (t : Fin 4096) (e : Fin 1024), j = ix3 b t e := ⟨j 0, j 1, j 2, eq_ix3 j⟩
  rw [val_main_v15_apply, val_main_v11_apply, val_main_v7_apply, conv_apply]
  exact congrArg₂ (· + ·) (congrArg₂ (· + ·) (congrArg₂ (· + ·) (tap0_eq X W b t e) (tap1_eq X W b t e)) (tap2_eq X W b t e)) (tap3_eq X W b t e)

end Cert.ReferenceIdeal.ConvValue

end
-- ==== Proof.lean ====
/-
  The claims of this certificate, assembled.

  The kernel is a causal convolution over four taps, computed tile by tile: each grid point reads a tile of 1024 rows of
  the sequence and the 16 rows before it through two windows on the same array, rolls the stacked rows down by the tap's
  number, and adds the four products with the column panels of the transposed weight. The reference multiplies by the whole
  weight once and adds the four column blocks of the product, each moved down by its number behind zero rows. Over the
  extended reals both are the same four-tap sum at every entry (`Cert.ConvSpec.conv`): the only laws used are that zero is
  neutral for addition and absorbing for multiplication, which hold at the infinities too, so the precondition is never
  opened.

  The three frames: both kernel programs by the launch for windows that share an array (the same text at either float
  instance), the reference by its generated run. The idealization rewrote nothing, so `preserves` is trivial.
-/
import proofs.«109287_j13357348290662_2_alg».proof.Defs
import proofs.«109287_j13357348290662_2_alg».proof.Proof.Gen.Kernel
import proofs.«109287_j13357348290662_2_alg».proof.Proof.Gen.KernelIdeal
import proofs.«109287_j13357348290662_2_alg».proof.Proof.Gen.ReferenceIdeal
import proofs.«109287_j13357348290662_2_alg».proof.Proof.Gen.Pre_finite_inputs
import proofs.«109287_j13357348290662_2_alg».proof.Proof.Gen.ReferenceIdeal.Run
import proofs.«109287_j13357348290662_2_alg».proof.Proof.Gen.ReferenceIdeal.Read
import proofs.«109287_j13357348290662_2_alg».proof.Proof.LaunchK
import proofs.«109287_j13357348290662_2_alg».proof.Proof.KernelValue
import proofs.«109287_j13357348290662_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Conv.frame m ρ

theorem frame_kernelIdeal : Cert.frame_KernelIdeal := fun m ρ _ => Cert.KernelIdeal.Conv.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result at the convolution of the arguments they were started on, and those agree. -/
theorem algebraic : Cert.algebraic_KernelIdeal_ReferenceIdeal := by
  intro m ρ m' ρ' _ hagree
  refine ⟨fun c => Cert.ConvSpec.conv (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ConvValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.ConvValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
